-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S256x1536 : Shape := ⟨2, ![256, 1536]⟩
abbrev S256 : Shape := ⟨1, ![256]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S256x1536 : S_.BroadcastsInDim S256x1536 (![] : Fin 0 → Fin S256x1536.rank)
  reducesTo_S256x1536_S_d0_1 : S256x1536.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4x256x768 .f32) (main_arg1 : FVec F S256x1536 .f32) (main_arg2 : FVec F S256 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S256x1536 .f32 := Host.absf main_arg1
  let main_cst_0 : FVec F S_ .f32 := constant S_ .f32 0x7F800000#32
  let main_v5 : FVec F S256x1536 .f32 := broadcastInDim S256x1536 ![] bcast_S_S256x1536 main_cst_0
  let main_v6 : IVec S256x1536 1 := cmpf .olt main_v4 main_v5
  let main_c_1 : IVec S_ 1 := constantI S_ 1 1#1
  let main_v7 : IVec S_ 1 := (fun x v => Host.reduce IntOp.andi x v reducesTo_S256x1536_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x256x768 : Shape := ⟨3, ![4, 256, 768]⟩
abbrev S256x1536 : Shape := ⟨2, ![256, 1536]⟩
abbrev S256 : Shape := ⟨1, ![256]⟩
abbrev S256x768 : Shape := ⟨2, ![256, 768]⟩
abbrev S512x768 : Shape := ⟨2, ![512, 768]⟩
abbrev S_ : Shape := ⟨0, ![]⟩
abbrev S512 : Shape := ⟨1, ![512]⟩
abbrev S1024x768 : Shape := ⟨2, ![1024, 768]⟩
abbrev S1024x512 : Shape := ⟨2, ![1024, 512]⟩
abbrev S256x512 : Shape := ⟨2, ![256, 512]⟩
abbrev S1x512 : Shape := ⟨2, ![1, 512]⟩
abbrev S4x256x512 : Shape := ⟨3, ![4, 256, 512]⟩
abbrev S4x256x256 : Shape := ⟨3, ![4, 256, 256]⟩
abbrev S4x256x256x256 : Shape := ⟨4, ![4, 256, 256, 256]⟩
abbrev S1x128x256 : Shape := ⟨3, ![1, 128, 256]⟩
abbrev S1x128x128x256 : Shape := ⟨4, ![1, 128, 128, 256]⟩
abbrev S128x256 : Shape := ⟨2, ![128, 256]⟩
abbrev S128x1x256 : Shape := ⟨3, ![128, 1, 256]⟩
abbrev S128x128x256 : Shape := ⟨3, ![128, 128, 256]⟩

abbrev nBuf : Space → Nat
  | .hbm => 16
  | .vmem => 12
  | .smem => 0
  | _ => 0

abbrev bufTy : (tb : Table) → Fin (tcTables nBuf tb) → BufTy
  | .hbm, ⟨0, _⟩ => ⟨S4x256x768, .f32⟩
  | .hbm, ⟨1, _⟩ => ⟨S256x1536, .f32⟩
  | .hbm, ⟨2, _⟩ => ⟨S256, .f32⟩
  | .hbm, ⟨3, _⟩ => ⟨S256x768, .f32⟩
  | .hbm, ⟨4, _⟩ => ⟨S256x768, .f32⟩
  | .hbm, ⟨5, _⟩ => ⟨S512x768, .f32⟩
  | .hbm, ⟨6, _⟩ => ⟨S512x768, .bf16⟩
  | .hbm, ⟨7, _⟩ => ⟨S_, .f32⟩
  | .hbm, ⟨8, _⟩ => ⟨S256, .f32⟩
  | .hbm, ⟨9, _⟩ => ⟨S512, .f32⟩
  | .hbm, ⟨10, _⟩ => ⟨S1024x768, .f32⟩
  | .hbm, ⟨11, _⟩ => ⟨S1024x512, .f32⟩
  | .hbm, ⟨12, _⟩ => ⟨S4x256x512, .f32⟩
  | .hbm, ⟨13, _⟩ => ⟨S4x256x256, .f32⟩
  | .hbm, ⟨14, _⟩ => ⟨S4x256x256, .f32⟩
  | .hbm, ⟨15, _⟩ => ⟨S4x256x256x256, .f32⟩
  | .local _ .vmem, ⟨0, _⟩ => ⟨S256x768, .f32⟩
  | .local _ .vmem, ⟨1, _⟩ => ⟨S256x768, .f32⟩
  | .local _ .vmem, ⟨2, _⟩ => ⟨S512x768, .bf16⟩
  | .local _ .vmem, ⟨3, _⟩ => ⟨S512, .f32⟩
  | .local _ .vmem, ⟨4, _⟩ => ⟨S256x512, .f32⟩
  | .local _ .vmem, ⟨5, _⟩ => ⟨S256x512, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x128x256, .f32⟩
  | .local _ .vmem, ⟨11, _⟩ => ⟨S1x128x128x256, .f32⟩
  | _, _ => ⟨S4x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x128x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  slices_S256x1536_S256x768_0_0 : S256x1536.Slices ![0, 0] S256x768
  slices_S256x1536_S256x768_0_768 : S256x1536.Slices ![0, 768] S256x768
  concatenates_S256x768_S256x768_S512x768_d0 : Shape.Concatenates [S256x768, S256x768] S512x768 0
  bitsLt_bf16_f32 : FTy.bits .bf16 < FTy.bits .f32
  bcast_S_S256 : S_.BroadcastsInDim S256 (![] : Fin 0 → Fin S256.rank)
  concatenates_S256_S256_S512_d0 : Shape.Concatenates [S256, S256] S512 0
  shapeCasts_S4x256x768_S1024x768 : S4x256x768.ShapeCasts S1024x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S1024x512_S4x256x512 : S1024x512.ShapeCasts S4x256x512
  slices_S4x256x512_S4x256x256_0_0_0 : S4x256x512.Slices ![0, 0, 0] S4x256x256
  slices_S4x256x512_S4x256x256_0_0_256 : S4x256x512.Slices ![0, 0, 256] S4x256x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S128x1x256 : S128x256.ShapeCasts S128x1x256
  shapeCasts_S128x256_S1x128x256 : S128x256.ShapeCasts S1x128x256
  broadcasts_S128x1x256_S128x128x256 : S128x1x256.Broadcasts S128x128x256
  broadcasts_S1x128x256_S128x128x256 : S1x128x256.Broadcasts S128x128x256
  inb_S1x128x128x256_S1x128x128x256_0_0_0_0 : ∀ a, (![0, 0, 0, 0] : Fin 4 → Nat) a + S1x128x128x256.size a ≤ S1x128x128x256.size a
  h_S1x128x128x256 : 0 < S1x128x128x256.numel
  shapeCasts_S1x128x128x256_S128x128x256 : S1x128x128x256.ShapeCasts S128x128x256
  shapeCasts_S128x128x256_S1x128x128x256 : S128x128x256.ShapeCasts S1x128x128x256
  dot_S256x768_S512x768_S256x512_1_1_0_0_n_n_wf : DotDims.WF S256x768 S512x768 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S1024x768.size a
  hwx0_0 : ∀ i : grid0.Coords, EltTy.bits .f32 = 32 ∨ (Rect.block (s := S1024x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .bf16 = 32 ∨ (Rect.block (s := S512x768) S512x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S1024x512.size a
  hwx0_3 : ∀ i : grid0.Coords, EltTy.bits .f32 = 32 ∨ (Rect.block (s := S1024x512) S256x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x256.size a ≤ S4x256x256.size a
  hwx1_0 : ∀ i : grid1.Coords, EltTy.bits .f32 = 32 ∨ (Rect.block (s := S4x256x256) S1x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x256.size a ≤ S4x256x256.size a
  hwx1_1 : ∀ i : grid1.Coords, EltTy.bits .f32 = 32 ∨ (Rect.block (s := S4x256x256) S1x128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128x256.size a ≤ S4x256x256x256.size a
  hwx1_2 : ∀ i : grid1.Coords, EltTy.bits .f32 = 32 ∨ (Rect.block (s := S4x256x256x256) S1x128x128x256.size (cc1_transform_2 i) (hinb1_2 i)).WholeWords (EltTy.packing .f32)

variable [Facts₀]

def dot_S256x768_S512x768_S256x512_1_1_0_0_n_n : DotDims S256x768 S512x768 S256x512 where
  lhsContracting := [1]
  rhsContracting := [1]
  lhsNonContracting := [0]
  rhsNonContracting := [0]
  lhsBatch := []
  rhsBatch := []
  wf := dot_S256x768_S512x768_S256x512_1_1_0_0_n_n_wf

abbrev win0_0 : Pipeline.Window sig grid0 :=
  Pipeline.Window.ofSpec (Memref.whole main_v6) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x128x128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x256x768 : Shape := ⟨3, ![4, 256, 768]⟩
abbrev S256x1536 : Shape := ⟨2, ![256, 1536]⟩
abbrev S256 : Shape := ⟨1, ![256]⟩
abbrev S256x768 : Shape := ⟨2, ![256, 768]⟩
abbrev S4x256x256 : Shape := ⟨3, ![4, 256, 256]⟩
abbrev S4x256x1x256 : Shape := ⟨4, ![4, 256, 1, 256]⟩
abbrev S4x1x256x256 : Shape := ⟨4, ![4, 1, 256, 256]⟩
abbrev S4x256x256x256 : Shape := ⟨4, ![4, 256, 256, 256]⟩
abbrev S1x1x1x256 : Shape := ⟨4, ![1, 1, 1, 256]⟩

abbrev nBuf : Space → Nat
  | .hbm => 15
  | .vmem => 0
  | .smem => 0
  | _ => 0

abbrev bufTy : (tb : Table) → Fin (tcTables nBuf tb) → BufTy
  | .hbm, ⟨0, _⟩ => ⟨S4x256x768, .f32⟩
  | .hbm, ⟨1, _⟩ => ⟨S256x1536, .f32⟩
  | .hbm, ⟨2, _⟩ => ⟨S256, .f32⟩
  | .hbm, ⟨3, _⟩ => ⟨S256x768, .f32⟩
  | .hbm, ⟨4, _⟩ => ⟨S256x768, .f32⟩
  | .hbm, ⟨5, _⟩ => ⟨S4x256x256, .f32⟩
  | .hbm, ⟨6, _⟩ => ⟨S4x256x256, .f32⟩
  | .hbm, ⟨7, _⟩ => ⟨S4x256x1x256, .f32⟩
  | .hbm, ⟨8, _⟩ => ⟨S4x1x256x256, .f32⟩
  | .hbm, ⟨9, _⟩ => ⟨S4x256x256x256, .f32⟩
  | .hbm, ⟨10, _⟩ => ⟨S4x256x256x256, .f32⟩
  | .hbm, ⟨11, _⟩ => ⟨S4x256x256x256, .f32⟩
  | .hbm, ⟨12, _⟩ => ⟨S1x1x1x256, .f32⟩
  | .hbm, ⟨13, _⟩ => ⟨S4x256x256x256, .f32⟩
  | .hbm, ⟨14, _⟩ => ⟨S4x256x256x256, .f32⟩
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S256x1536_S256x768_0_0 : S256x1536.Slices ![0, 0] S256x768
  slices_S256x1536_S256x768_0_768 : S256x1536.Slices ![0, 768] S256x768
  bcast_S4x256x256_S4x256x1x256_0_1_3 : S4x256x256.BroadcastsInDim S4x256x1x256 (![0, 1, 3] : Fin 3 → Fin S4x256x1x256.rank)
  bcast_S4x256x256_S4x1x256x256_0_2_3 : S4x256x256.BroadcastsInDim S4x1x256x256 (![0, 2, 3] : Fin 3 → Fin S4x1x256x256.rank)
  bcast_S4x256x1x256_S4x256x256x256_0_1_2_3 : S4x256x1x256.BroadcastsInDim S4x256x256x256 (![0, 1, 2, 3] : Fin 4 → Fin S4x256x256x256.rank)
  bcast_S4x1x256x256_S4x256x256x256_0_1_2_3 : S4x1x256x256.BroadcastsInDim S4x256x256x256 (![0, 1, 2, 3] : Fin 4 → Fin S4x256x256x256.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  dot_S4x256x768_S256x768_S4x256x256_2_1_01_0_n_n_wf : DotDims.WF S4x256x768 S256x768 S4x256x256 [2] [1] [0, 1] [0] [] []

variable [Facts₀]

def dot_S4x256x768_S256x768_S4x256x256_2_1_01_0_n_n : DotDims S4x256x768 S256x768 S4x256x256 where
  lhsContracting := [2]
  rhsContracting := [1]
  lhsNonContracting := [0, 1]
  rhsNonContracting := [0]
  lhsBatch := []
  rhsBatch := []
  wf := dot_S4x256x768_S256x768_S4x256x256_2_1_01_0_n_n_wf

class Facts : Prop extends Facts₀ where

variable [Facts]
-- ==== Proof.KernelRun.lean ====
/-
  The kernel program's run with its result named.

  @main is four segments: the host operations that lay out the operands, the projection's launch, the host
  operations that cut its result into two halves, and the pairwise sum's launch. The generated frame reads the
  final state against the contents `W4` the last launch leaves in every buffer that outlives a launch, and keeps
  only the three arguments; here the same run also keeps the result buffer, at `W4`'s value there — which is the
  last launch's output array after all its write-backs.
-/
import proofs.«135334_j50345606644227_2_alg».proof.Proof.Gen.KernelIdeal.Frame

set_option maxRecDepth 16384

noncomputable section

namespace Cert.PairProof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at what the last
    launch leaves there, and the three arguments end as launched. -/
theorem run_named : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.PairProof.Run

end
-- ==== Proof.PairSpec.lean ====
/-
  The arrays this kernel passes through, each as ONE function of the arrays before it, index by index, on the
  extended reals.

  The kernel computes, for a batch `b`, rows `i`, `j` and an output feature `o`,
    out[b,i,j,o] = pi[b,i,o] + pj[b,j,o],
  where `pj` and `pi` are the left and right halves (features `o` and `256 + o`) of ONE projection
    P[r,n] = Σ_k X[r,k] · Wc[n,k] + bp[n]
  of the text flattened to rows `r = 256·b + i`, against the weight's two column halves stacked as rows
  (`Wc[n] = weight[n, 0:768]` for `n < 256`, `weight[n-256, 768:1536]` otherwise) and the bias padded with
  zeros to 512 entries.
-/
import proofs.«135334_j50345606644227_2_alg».proof.KernelIdeal
import Idealize.ShloMosaic.PureOps.Ideal
import Idealize.ShloMosaic.Lib.ValueIdx

noncomputable section

namespace Cert.PairSpec

open Idealize.ShloMosaic Idealize.ShloMosaic.ValueIdx Cert.KernelIdeal

/-- Row `r` of the flattened text against row `n` of the stacked weight, plus entry `n` of the padded bias. -/
def projAt (x : Vec Ideal S1024x768 .f32) (w : Vec Ideal S512x768 .bf16) (bp : Vec Ideal S512 .f32)
    (r : Fin 1024) (n : Fin 512) : EReal :=
  (∑ k : Fin 768, x (ix2 r k) * w (ix2 n k)) + bp (ix1 n)

/-- The projection as an array over [1024, 512]. -/
def proj (x : Vec Ideal S1024x768 .f32) (w : Vec Ideal S512x768 .bf16) (bp : Vec Ideal S512 .f32) :
    Vec Ideal S1024x512 .f32 :=
  fun j => projAt x w bp ⟨(j 0).val, (j 0).isLt⟩ ⟨(j 1).val, (j 1).isLt⟩

theorem proj_apply (x : Vec Ideal S1024x768 .f32) (w : Vec Ideal S512x768 .bf16) (bp : Vec Ideal S512 .f32)
    (r : Fin 1024) (n : Fin 512) : proj x w bp (ix2 r n) = projAt x w bp r n := rfl

/-- The pairwise sum: entry (b, i, j, o) is `pi` at (b, i, o) plus `pj` at (b, j, o). -/
def comb (pi pj : Vec Ideal S4x256x256 .f32) : Vec Ideal S4x256x256x256 .f32 :=
  fun j => ((pi (ix3 (⟨(j 0).val, (j 0).isLt⟩ : Fin 4) (⟨(j 1).val, (j 1).isLt⟩ : Fin 256) (⟨(j 3).val, (j 3).isLt⟩ : Fin 256)) : EReal)
    + pj (ix3 (⟨(j 0).val, (j 0).isLt⟩ : Fin 4) (⟨(j 2).val, (j 2).isLt⟩ : Fin 256) (⟨(j 3).val, (j 3).isLt⟩ : Fin 256)))

theorem comb_apply (pi pj : Vec Ideal S4x256x256 .f32) (b : Fin 4) (i j o : Fin 256) :
    comb pi pj (ix4 b i j o) = (pi (ix3 b i o) : EReal) + pj (ix3 b j o) := rfl

/-- The text with its batch and row axes flattened: row `r` is row `r % 256` of batch `r / 256`. -/
def flatText (t : Vec Ideal S4x256x768 .f32) : Vec Ideal S1024x768 .f32 :=
  fun j => t (ix3 (⟨(j 0).val / 256, by have := (j 0).isLt; show _ < 4; change (j 0).val < 1024 at this; omega⟩ : Fin 4)
    (⟨(j 0).val % 256, Nat.mod_lt _ (by decide)⟩ : Fin 256) (⟨(j 1).val, (j 1).isLt⟩ : Fin 768))

/-- The weight's two column halves stacked as rows. -/
def stackedWeight (wt : Vec Ideal S256x1536 .f32) : Vec Ideal S512x768 .bf16 :=
  fun j => if h : (j 0).val < 256
    then wt (ix2 (⟨(j 0).val, h⟩ : Fin 256) (⟨(j 1).val, by have := (j 1).isLt; change (j 1).val < 768 at this; omega⟩ : Fin 1536))
    else wt (ix2 (⟨(j 0).val - 256, by have := (j 0).isLt; change (j 0).val < 512 at this; omega⟩ : Fin 256)
      (⟨768 + (j 1).val, by have := (j 1).isLt; change (j 1).val < 768 at this; omega⟩ : Fin 1536))

/-- The bias padded with zeros to 512 entries. -/
def paddedBias (b : Vec Ideal S256 .f32) : Vec Ideal S512 .f32 :=
  fun j => if h : (j 0).val < 256 then b (ix1 (⟨(j 0).val, h⟩ : Fin 256)) else (0 : EReal)

/-- Features 0..255 of the projection, with the row axis split back into (batch, row). -/
def leftHalf (p : Vec Ideal S1024x512 .f32) : Vec Ideal S4x256x256 .f32 :=
  fun j => p (ix2 (⟨(j 0).val * 256 + (j 1).val, by
      have h0 := (j 0).isLt; have h1 := (j 1).isLt; change (j 0).val < 4 at h0; change (j 1).val < 256 at h1; omega⟩ : Fin 1024)
    (⟨(j 2).val, by have := (j 2).isLt; change (j 2).val < 256 at this; omega⟩ : Fin 512))

/-- Features 256..511 of the projection, with the row axis split back into (batch, row). -/
def rightHalf (p : Vec Ideal S1024x512 .f32) : Vec Ideal S4x256x256 .f32 :=
  fun j => p (ix2 (⟨(j 0).val * 256 + (j 1).val, by
      have h0 := (j 0).isLt; have h1 := (j 1).isLt; change (j 0).val < 4 at h0; change (j 1).val < 256 at h1; omega⟩ : Fin 1024)
    (⟨256 + (j 2).val, by have := (j 2).isLt; change (j 2).val < 256 at this; omega⟩ : Fin 512))

end Cert.PairSpec

end
-- ==== Proof.ProjBlocks.lean ====
/-
  The first kernel's result array: every entry of the [1024, 512] array the projection kernel leaves is the row of the
  flattened text against the row of the stacked weight, plus the padded bias entry — the function `proj` of the three
  arrays the kernel reads, index by index.

  The kernel's grid has four points; point `t` reads rows 256·t … 256·t+255 of the text, the whole weight and the whole
  bias, and writes rows 256·t … 256·t+255 of the result. The four row blocks tile the result.
-/
import proofs.«135334_j50345606644227_2_alg».proof.Proof.PairSpec
import proofs.«135334_j50345606644227_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.PairProof.Proj

open Idealize.ShloMosaic Idealize.ShloMosaic.TcCoe Idealize.ShloMosaic.ValueIdx Idealize.SL.Sem Cert.KernelIdeal Cert.KernelIdeal.Gen Cert.PairSpec

/-! ## The body's arithmetic at one entry -/

/-- The matrix product's left operand index at output entry `(p, q)` and contraction position `k` is `(p, k)`. -/
theorem lhsIdx_eq (p : Fin 256) (q : Fin 512) (k : Fin 768) :
    dot_S256x768_S512x768_S256x512_1_1_0_0_n_n.lhsIdx (ix2 p q)
        ((contrEquiv1 dot_S256x768_S512x768_S256x512_1_1_0_0_n_n 768 rfl rfl).symm k) = ix2 p k := by
  have hk := contrEquiv1_symm_val dot_S256x768_S512x768_S256x512_1_1_0_0_n_n 768 rfl rfl k
  funext a; apply Fin.ext
  match a with
  | ⟨0, _⟩ =>
    show (dot_S256x768_S512x768_S256x512_1_1_0_0_n_n.lhsIdx (ix2 p q) _ 0).val = p.val
    unfold DotDims.lhsIdx
    rw [dif_neg (show ¬(0 : Fin S256x768.rank) ∈ dot_S256x768_S512x768_S256x512_1_1_0_0_n_n.lhsBatch by decide),
      dif_pos (show (0 : Fin S256x768.rank) ∈ dot_S256x768_S512x768_S256x512_1_1_0_0_n_n.lhsNonContracting by decide)]
    rfl
  | ⟨1, _⟩ =>
    exact (dot_S256x768_S512x768_S256x512_1_1_0_0_n_n.lhsIdx_val_of_single rfl (ix2 p q) _).trans hk

/-- The right operand index there is `(q, k)`: the weight is contracted along its second axis. -/
theorem rhsIdx_eq (p : Fin 256) (q : Fin 512) (k : Fin 768) :
    dot_S256x768_S512x768_S256x512_1_1_0_0_n_n.rhsIdx (ix2 p q)
        ((contrEquiv1 dot_S256x768_S512x768_S256x512_1_1_0_0_n_n 768 rfl rfl).symm k) = ix2 q k := by
  have hk := contrEquiv1_symm_val dot_S256x768_S512x768_S256x512_1_1_0_0_n_n 768 rfl rfl k
  funext a; apply Fin.ext
  match a with
  | ⟨0, _⟩ =>
    show (dot_S256x768_S512x768_S256x512_1_1_0_0_n_n.rhsIdx (ix2 p q) _ 0).val = q.val
    unfold DotDims.rhsIdx
    rw [dif_neg (show ¬(0 : Fin S512x768.rank) ∈ dot_S256x768_S512x768_S256x512_1_1_0_0_n_n.rhsBatch by decide),
      dif_pos (show (0 : Fin S512x768.rank) ∈ dot_S256x768_S512x768_S256x512_1_1_0_0_n_n.rhsNonContracting by decide)]
    rfl
  | ⟨1, _⟩ =>
    exact (dot_S256x768_S512x768_S256x512_1_1_0_0_n_n.rhsIdx_val_of_single rfl (ix2 p q) _).trans hk

/-- The matrix product into the zero accumulator, at entry `(p, q)`: row `p` of the left operand against row `q` of the
    right one. -/
theorem matmul_entry (l : FVec Ideal S256x768 .bf16) (r : FVec Ideal S512x768 .bf16) (p : Fin 256) (q : Fin 512) :
    matmul dot_S256x768_S512x768_S256x512_1_1_0_0_n_n none l r (constant S256x512 .f32 0x00000000#32) (ix2 p q)
      = ∑ k : Fin 768, l (ix2 p k) * r (ix2 q k) := by
  refine (Ideal.matmul_constant_zero_apply dot_S256x768_S512x768_S256x512_1_1_0_0_n_n none l r (ix2 p q)).trans ?_
  rw [← Equiv.sum_comp (contrEquiv1 dot_S256x768_S512x768_S256x512_1_1_0_0_n_n 768 rfl rfl).symm]
  refine Finset.sum_congr rfl fun k _ => ?_
  rw [lhsIdx_eq, rhsIdx_eq]

/-- The bias row, spread over the 256 rows, at entry `(p, q)` is the bias at `q`. -/
theorem bias_entry (b : FVec Ideal S512 .f32) (p : Fin 256) (q : Fin 512) :
    broadcastTo S256x512 (shapeCast S1x512 (shapeCast S512 b Facts₀.shapeCasts_S512_S512) Facts₀.shapeCasts_S512_S1x512)
        Facts₀.broadcasts_S1x512_S256x512 (ix2 p q) = b (ix1 q) := by
  rw [shapeCast_self]
  refine (broadcastTo_1b_ab_apply _ Facts₀.broadcasts_S1x512_S256x512 p q).trans ?_
  exact shapeCast_a_1a_apply b Facts₀.shapeCasts_S512_S1x512 (0 : Fin 1) q

/-- THE BODY'S RESULT AT ENTRY `(p, q)`, from the three blocks it loads: row `p` of the text block against row `q` of the
    weight, plus the bias at `q`. -/
theorem payload_entry (x0 : Vec Ideal S256x768 .f32) (x1 : Vec Ideal S512x768 .bf16) (x2 : Vec Ideal S512 .f32)
    (p : Fin 256) (q : Fin 512) :
    k0_pay1 (F := Ideal) x0 x1 x2 (ix2 p q) = (∑ k : Fin 768, x0 (ix2 p k) * x1 (ix2 q k)) + x2 (ix1 q) := by
  unfold k0_pay1
  refine (addf_apply _ _ (ix2 p q)).trans ?_
  rw [matmul_entry, bias_entry, shapeCast_self, shapeCast_self]
  rfl

/-! ## From the four row blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the text's and the result's blocks are block row `t`, the weight's and the
    bias's the one block at zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 4 := by
  have hN : cfg0.N = 4 := N_0
  have := t.isLt
  omega

/-- WHAT POINT `t` WRITES BACK is block row `t` of the projection of the three arrays as the region finds them. -/
theorem flushed_eq (V : (c : Dev nD) → (b : Ref sig .tc) → Buf (Elt Ideal) ((c : Thread nD τ).loc b)) (c : Dev nD)
    (t : Fin cfg0.N) :
    (dat0 V c).flushed 3 t
      = ((cfg0.win 3).blk t).view.read (Elt Ideal) (proj (V c main_v6) (V c main_v3) (V c main_v5)) := by
  show (cfg0.win 3).cut (grid0.coords t) ((dat0 V c).after 3 t) = _
  rw [after0_3]
  unfold out0_3
  rw [View.canon_unit_zero zeros2]
  simp only [View.ld_unit_zero (S := S256x768) zeros2, View.ld_unit_zero (S := S512x768) zeros2,
    View.ld_unit_zero (S := S512) zeros1]
  obtain ⟨e00, e01, e10, e11, e20, e30, e31⟩ := index_facts t
  have ht := point_lt t
  funext j
  obtain ⟨p, q, rfl⟩ : ∃ (p : Fin 256) (q : Fin 512), j = ix2 p q := ⟨j 0, j 1, eq_ix2 j⟩
  show k0_pay1 (F := Ideal) (iblk0 V c 0 t) (iblk0 V c 1 t) (iblk0 V c 2 t) (ix2 p q)
      = proj (V c main_v6) (V c main_v3) (V c main_v5) (((cfg0.win 3).blk t).view.emb (ix2 p q))
  have hout : ((cfg0.win 3).blk t).view.emb (ix2 p q)
      = ix2 (⟨t.val * 256 + p.val, by have := p.isLt; omega⟩ : Fin 1024) q := by
    funext a; apply Fin.ext
    match a with
    | ⟨0, _⟩ => show win0_3.index t (0 : Fin 2) * 256 + 1 * p.val = t.val * 256 + p.val; rw [e30]; omega
    | ⟨1, _⟩ => show win0_3.index t (1 : Fin 2) * 512 + 1 * q.val = q.val; rw [e31]; omega
  rw [hout, proj_apply]
  refine (payload_entry _ _ _ p q).trans ?_
  unfold projAt
  refine congrArg₂ (· + ·) (Finset.sum_congr rfl fun k _ => congrArg₂ (· * ·) ?_ ?_) ?_
  · -- the text block's row `p` is row `256·t + p` of the text
    show V c main_v6 (((cfg0.win 0).blk t).view.emb (ix2 p k)) = V c main_v6 (ix2 _ k)
    refine congrArg _ (funext fun a => Fin.ext ?_)
    match a with
    | ⟨0, _⟩ => show win0_0.index t (0 : Fin 2) * 256 + 1 * p.val = t.val * 256 + p.val; rw [e00]; omega
    | ⟨1, _⟩ => show win0_0.index t (1 : Fin 2) * 768 + 1 * k.val = k.val; rw [e01]; omega
  · -- the weight's one block is the weight
    show V c main_v3 (((cfg0.win 1).blk t).view.emb (ix2 q k)) = V c main_v3 (ix2 q k)
    refine congrArg _ (funext fun a => Fin.ext ?_)
    match a with
    | ⟨0, _⟩ => show win0_1.index t (0 : Fin 2) * 512 + 1 * q.val = q.val; rw [e10]; omega
    | ⟨1, _⟩ => show win0_1.index t (1 : Fin 2) * 768 + 1 * k.val = k.val; rw [e11]; omega
  · -- the bias's one block is the bias
    show V c main_v5 (((cfg0.win 2).blk t).view.emb (ix1 q)) = V c main_v5 (ix1 q)
    refine congrArg _ (funext fun a => Fin.ext ?_)
    match a with
    | ⟨0, _⟩ => show win0_2.index t (0 : Fin 1) * 512 + 1 * q.val = q.val; rw [e20]; omega

/-- An index of the result array is in point `t`'s block iff each coordinate is in the block's range on its axis. -/
theorem mem_blk (t : Fin cfg0.N) (i : S1024x512.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v7).slice (win0_3.rect t)).set ↔ _
  rw [View.set_slice_whole, Rect.mem_set_unit]
  exact Iff.rfl

/-- The four row blocks tile the result: row `r` is in the block of point `r / 256`, which writes it back. -/
theorem cover (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  have hN : cfg0.N = 4 := N_0
  obtain ⟨t, htv⟩ : ∃ t : Fin cfg0.N, t.val = (i 0).val / 256 := ⟨⟨(i 0).val / 256, by rw [hN]; omega⟩, rfl⟩
  refine ⟨t, flush0_3 t, ?_⟩
  rw [mem_blk]
  obtain ⟨-, -, -, -, -, e30, e31⟩ := index_facts t
  intro a
  match a with
  | ⟨0, _⟩ =>
    show win0_3.index t (0 : Fin 2) * 256 ≤ (i 0).val ∧ (i 0).val < win0_3.index t (0 : Fin 2) * 256 + 256
    rw [e30]; omega
  | ⟨1, _⟩ =>
    show win0_3.index t (1 : Fin 2) * 512 ≤ (i 1).val ∧ (i 1).val < win0_3.index t (1 : Fin 2) * 512 + 512
    rw [e31]; omega

/-- THE RESULT ARRAY after the first kernel: the projection of the text, the stacked weight and the padded bias as the
    region finds them, at every index. -/
theorem region0_value (V : (c : Dev nD) → (b : Ref sig .tc) → Buf (Elt Ideal) ((c : Thread nD τ).loc b)) (c : Dev nD) :
    (dat0 V c).arrAt 3 cfg0.N = proj (V c main_v6) (V c main_v3) (V c main_v5) :=
  (dat0 V c).arrAt_eq_of_cover 3 (proj (V c main_v6) (V c main_v3) (V c main_v5)) (fun t _ => flushed_eq V c t) cover

end Cert.PairProof.Proj

end
-- ==== Proof.PairBlocks.lean ====
/-
  The second kernel's output array as ONE function of its two operand arrays.

  Each of the 16 grid points (b, gi, gj) reads rows 128·gi … 128·gi + 127 of batch b of the first operand and rows
  128·gj … 128·gj + 127 of batch b of the second, and writes the [1, 128, 128, 256] block (b, gi, gj, 0) of the output,
  whose entry (0, p, q, o) is the first block at (0, p, o) plus the second at (0, q, o). The blocks tile the output, so
  the output ends holding, at (b, i, j, o), the first operand at (b, i, o) plus the second at (b, j, o).
-/
import proofs.«135334_j50345606644227_2_alg».proof.Proof.PairSpec
import proofs.«135334_j50345606644227_2_alg».proof.Proof.Gen.KernelIdeal.Frame
import Idealize.ShloMosaic.Lib.Pipeline.Value
import Idealize.ShloMosaic.Lib.ValueIdx
import Idealize.ShloMosaic.Lib.ValueLayout

noncomputable section

namespace Cert.PairProof.Pair

open Idealize.ShloMosaic Idealize.ShloMosaic.TcCoe Idealize.ShloMosaic.ValueIdx Idealize.SL.Sem Cert.KernelIdeal Cert.KernelIdeal.Gen Cert.PairSpec

/-! ## Two broadcasts along one axis of a rank-3 array, read at an index -/

/-- An `[a, 1, c]` array broadcast to `[a, b, c]` reads, at `(p, q, o)`, the operand at `(p, 0, o)`: the middle
    coordinate is forgotten. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (q : Fin b) (o : Fin c) :
    broadcastTo ⟨3, ![a, b, c]⟩ v h (ix3 p q o) = v (ix3 p (0 : Fin 1) o) := by
  refine broadcastTo_apply v h (ix3 p q o) (ix3 p (0 : Fin 1) o) fun ax => ?_
  match ax with
  | ⟨0, _⟩ =>
    show p.val = if a = 1 then 0 else p.val
    split
    · have := p.isLt; omega
    · rfl
  | ⟨1, _⟩ => rfl
  | ⟨2, _⟩ =>
    show o.val = if c = 1 then 0 else o.val
    split
    · have := o.isLt; omega
    · rfl

/-- A `[1, b, c]` array broadcast to `[a, b, c]` reads, at `(p, q, o)`, the operand at `(0, q, o)`: the leading
    coordinate is forgotten. -/
theorem broadcastTo_1bc_abc_apply {α : Type} {a b c : ℕ} (v : (⟨3, ![1, b, c]⟩ : Shape).Idx → α)
    (h : (⟨3, ![1, b, c]⟩ : Shape).Broadcasts ⟨3, ![a, b, c]⟩) (p : Fin a) (q : Fin b) (o : Fin c) :
    broadcastTo ⟨3, ![a, b, c]⟩ v h (ix3 p q o) = v (ix3 (0 : Fin 1) q o) := by
  refine broadcastTo_apply v h (ix3 p q o) (ix3 (0 : Fin 1) q o) fun ax => ?_
  match ax with
  | ⟨0, _⟩ => rfl
  | ⟨1, _⟩ =>
    show q.val = if b = 1 then 0 else q.val
    split
    · have := q.isLt; omega
    · rfl
  | ⟨2, _⟩ =>
    show o.val = if c = 1 then 0 else o.val
    split
    · have := o.isLt; omega
    · rfl

/-- An `[a, c]` array cast to `[a, 1, c]` reads, at `(p, u, o)`, the operand at `(p, o)`. -/
theorem shapeCast_ac_a1c_apply {α : Type} {a c : ℕ} (x : (⟨2, ![a, c]⟩ : Shape).Idx → α)
    (h : (⟨2, ![a, c]⟩ : Shape).ShapeCasts ⟨3, ![a, 1, c]⟩) (p : Fin a) (u : Fin 1) (o : Fin c) :
    shapeCast ⟨3, ![a, 1, c]⟩ x h (ix3 p u o) = x (ix2 p o) :=
  shapeCast_apply x h _ _ (by
    have hu : u.val = 0 := by omega
    rw [Shape.rowMajor_val_three, Shape.rowMajor_val_two]
    show p.val * c + o.val = (p.val * 1 + u.val) * c + o.val
    rw [hu, Nat.mul_one, Nat.add_zero])

/-! ## The body's payload at an index -/

/-- What the body stores, at (0, p, q, o): row `p` of its first block plus row `q` of its second, at feature `o`. -/
theorem pay_apply (x0 x1 : Vec Ideal S1x128x256 .f32) (p q : Fin 128) (o : Fin 256) :
    k1_pay1 x0 x1 (ix4 (0 : Fin 1) p q o) = (x0 (ix3 (0 : Fin 1) p o) : EReal) + x1 (ix3 (0 : Fin 1) q o) := by
  unfold k1_pay1
  rw [shapeCast_abc_1abc_apply, addf_apply, broadcastTo_a1c_abc_apply, broadcastTo_1bc_abc_apply,
    shapeCast_ac_a1c_apply, shapeCast_ab_1ab_apply, shapeCast_1ab_ab_apply, shapeCast_1ab_ab_apply]

/-- The payload at an index of the block, by that index's coordinates. -/
theorem pay_at (x0 x1 : Vec Ideal S1x128x256 .f32) (j : S1x128x128x256.Idx) :
    k1_pay1 x0 x1 j = (x0 (ix3 (0 : Fin 1) (j 1) (j 3)) : EReal) + x1 (ix3 (0 : Fin 1) (j 2) (j 3)) := by
  obtain ⟨u, p, q, o, rfl⟩ : ∃ (u : Fin 1) (p q : Fin 128) (o : Fin 256), j = ix4 u p q o :=
    ⟨j 0, j 1, j 2, j 3, eq_ix4 j⟩
  obtain rfl : u = 0 := Subsingleton.elim _ _
  exact pay_apply x0 x1 p q o

/-! ## The three index maps over the 16 grid points -/

section Region

variable (V : (c : Dev nD) → (b : Ref sig .tc) → Buf (Elt Ideal) ((c : Thread nD τ).loc b))

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- At every grid point the first operand's block has the output block's batch and row-block indices, the second
    operand's block has its batch and column-block indices, the feature axis is never split, and the output's block
    indices stay in their ranges. -/
theorem index_facts : ∀ t : Fin cfg1.N, win1_0.index t (0 : Fin 3) = win1_2.index t (0 : Fin 4)
    ∧ win1_0.index t (1 : Fin 3) = win1_2.index t (1 : Fin 4)
    ∧ win1_0.index t (2 : Fin 3) = 0
    ∧ win1_1.index t (0 : Fin 3) = win1_2.index t (0 : Fin 4)
    ∧ win1_1.index t (1 : Fin 3) = win1_2.index t (2 : Fin 4)
    ∧ win1_1.index t (2 : Fin 3) = 0
    ∧ win1_2.index t (3 : Fin 4) = 0
    ∧ win1_2.index t (0 : Fin 4) ≤ 3
    ∧ win1_2.index t (1 : Fin 4) ≤ 1
    ∧ win1_2.index t (2 : Fin 4) ≤ 1 :=
  (by decide +kernel : ∀ t : Fin grid1.N, _)

/-- Every block of the output is some grid point's. -/
theorem index_onto : ∀ (q0 : Fin 4) (q1 q2 : Fin 2), ∃ t : Fin cfg1.N, win1_2.index t = ![q0.val, q1.val, q2.val, 0] :=
  (by decide +kernel : ∀ (q0 : Fin 4) (q1 q2 : Fin 2), ∃ t : Fin grid1.N, win1_2.index t = ![q0.val, q1.val, q2.val, 0])

/-- The first operand's block at point `t`, at an index `x` of the block, is the operand at the index `k` whose
    coordinate on each axis is the block's index times the block's size plus `x`'s coordinate. -/
theorem block_first (c : Dev nD) (t : Fin cfg1.N) (x : S1x128x256.Idx) (k : S4x256x256.Idx)
    (h0 : (k 0).val = win1_0.index t (0 : Fin 3) * 1 + (x 0).val)
    (h1 : (k 1).val = win1_0.index t (1 : Fin 3) * 128 + (x 1).val)
    (h2 : (k 2).val = win1_0.index t (2 : Fin 3) * 256 + (x 2).val) :
    (iblk1 V c 0 t : Vec Ideal S1x128x256 .f32) x = (V c main_v10 : S4x256x256.Idx → EReal) k := by
  unfold iblk1
  rw [View.read_apply]
  show V c main_v10 _ = V c main_v10 _
  congr 1
  funext a
  apply Fin.ext
  match a with
  | ⟨0, _⟩ => show win1_0.index t (0 : Fin 3) * 1 + 1 * (x 0).val = (k 0).val; omega
  | ⟨1, _⟩ => show win1_0.index t (1 : Fin 3) * 128 + 1 * (x 1).val = (k 1).val; omega
  | ⟨2, _⟩ => show win1_0.index t (2 : Fin 3) * 256 + 1 * (x 2).val = (k 2).val; omega

/-- The same for the second operand's block. -/
theorem block_second (c : Dev nD) (t : Fin cfg1.N) (x : S1x128x256.Idx) (k : S4x256x256.Idx)
    (h0 : (k 0).val = win1_1.index t (0 : Fin 3) * 1 + (x 0).val)
    (h1 : (k 1).val = win1_1.index t (1 : Fin 3) * 128 + (x 1).val)
    (h2 : (k 2).val = win1_1.index t (2 : Fin 3) * 256 + (x 2).val) :
    (iblk1 V c 1 t : Vec Ideal S1x128x256 .f32) x = (V c main_v9 : S4x256x256.Idx → EReal) k := by
  unfold iblk1
  rw [View.read_apply]
  show V c main_v9 _ = V c main_v9 _
  congr 1
  funext a
  apply Fin.ext
  match a with
  | ⟨0, _⟩ => show win1_1.index t (0 : Fin 3) * 1 + 1 * (x 0).val = (k 0).val; omega
  | ⟨1, _⟩ => show win1_1.index t (1 : Fin 3) * 128 + 1 * (x 1).val = (k 1).val; omega
  | ⟨2, _⟩ => show win1_1.index t (2 : Fin 3) * 256 + 1 * (x 2).val = (k 2).val; omega

/-! ## What a grid point writes back -/

/-- Point `t` writes back block `t` of the pairwise sum of the two operand arrays. -/
theorem flushed_eq (c : Dev nD) (t : Fin cfg1.N) :
    (dat1 V c).flushed 2 t
      = ((cfg1.win 2).blk t).view.read (Elt Ideal) (comb (V c main_v10) (V c main_v9)) := by
  show (cfg1.win 2).cut (grid1.coords t) ((dat1 V c).after 2 t) = _
  rw [after1_2]
  unfold out1_2
  rw [View.canon_unit_zero zero4]
  simp only [View.ld_unit_zero (S := S1x128x256) zero3]
  obtain ⟨e0, e1, e2, e3, e4, e5, e6, e7, e8, e9⟩ := index_facts t
  funext j
  refine (pay_at _ _ j).trans ?_
  rw [View.read_apply]
  unfold comb
  have j0 : (j 0).val < 1 := (j 0).isLt
  refine congrArg₂ (· + ·) ?_ ?_
  · refine block_first V c t _ _ ?_ ?_ ?_
    · show win1_2.index t (0 : Fin 4) * 1 + 1 * (j 0).val = win1_0.index t (0 : Fin 3) * 1 + 0
      omega
    · show win1_2.index t (1 : Fin 4) * 128 + 1 * (j 1).val = win1_0.index t (1 : Fin 3) * 128 + (j 1).val
      omega
    · show win1_2.index t (3 : Fin 4) * 256 + 1 * (j 3).val = win1_0.index t (2 : Fin 3) * 256 + (j 3).val
      omega
  · refine block_second V c t _ _ ?_ ?_ ?_
    · show win1_2.index t (0 : Fin 4) * 1 + 1 * (j 0).val = win1_1.index t (0 : Fin 3) * 1 + 0
      omega
    · show win1_2.index t (2 : Fin 4) * 128 + 1 * (j 2).val = win1_1.index t (1 : Fin 3) * 128 + (j 2).val
      omega
    · show win1_2.index t (3 : Fin 4) * 256 + 1 * (j 3).val = win1_1.index t (2 : Fin 3) * 256 + (j 3).val
      omega

/-! ## The blocks tile the output -/

/-- An index of the output is in point `t`'s block iff each coordinate is in the block's range on its axis. -/
theorem mem_block (t : Fin cfg1.N) (i : S4x256x256x256.Idx) :
    i ∈ ((cfg1.win 2).blk t).view.set ↔ ∀ a : Fin 4, win1_2.index t a * S1x128x128x256.size a ≤ (i a).val
      ∧ (i a).val < win1_2.index t a * S1x128x128x256.size a + S1x128x128x256.size a := by
  show i ∈ ((View.whole main_v11).slice (win1_2.rect t)).set ↔ _
  rw [View.set_slice_whole, Rect.mem_set_unit]
  exact Iff.rfl

/-- Every index (b, i, j, o) of the output is in the block of the point whose block indices are (b, i / 128, j / 128, 0),
    and every point writes its block back. -/
theorem covered (i : S4x256x256x256.Idx) :
    ∃ t : Fin cfg1.N, (cfg1.win 2).flush t = true ∧ i ∈ ((cfg1.win 2).blk t).view.set := by
  have hi0 : (i 0).val < 4 := (i 0).isLt
  have hi1 : (i 1).val < 256 := (i 1).isLt
  have hi2 : (i 2).val < 256 := (i 2).isLt
  have hi3 : (i 3).val < 256 := (i 3).isLt
  obtain ⟨t, ht⟩ := index_onto ⟨(i 0).val, hi0⟩ ⟨(i 1).val / 128, by omega⟩ ⟨(i 2).val / 128, by omega⟩
  have q0 : win1_2.index t (0 : Fin 4) = (i 0).val := congrFun ht 0
  have q1 : win1_2.index t (1 : Fin 4) = (i 1).val / 128 := congrFun ht 1
  have q2 : win1_2.index t (2 : Fin 4) = (i 2).val / 128 := congrFun ht 2
  have q3 : win1_2.index t (3 : Fin 4) = 0 := congrFun ht 3
  refine ⟨t, flush1_2 t, ?_⟩
  rw [mem_block]
  intro a
  match a with
  | ⟨0, _⟩ =>
    show win1_2.index t (0 : Fin 4) * 1 ≤ (i 0).val ∧ (i 0).val < win1_2.index t (0 : Fin 4) * 1 + 1
    omega
  | ⟨1, _⟩ =>
    show win1_2.index t (1 : Fin 4) * 128 ≤ (i 1).val ∧ (i 1).val < win1_2.index t (1 : Fin 4) * 128 + 128
    omega
  | ⟨2, _⟩ =>
    show win1_2.index t (2 : Fin 4) * 128 ≤ (i 2).val ∧ (i 2).val < win1_2.index t (2 : Fin 4) * 128 + 128
    omega
  | ⟨3, _⟩ =>
    show win1_2.index t (3 : Fin 4) * 256 ≤ (i 3).val ∧ (i 3).val < win1_2.index t (3 : Fin 4) * 256 + 256
    omega

/-! ## The output array after the last point -/

/-- After the 16 points the output array holds the pairwise sum of the two operand arrays as the region found them. -/
theorem region1_value (c : Dev nD) :
    (dat1 V c).arrAt 2 cfg1.N = comb (V c main_v10) (V c main_v9) :=
  (dat1 V c).arrAt_eq_of_cover 2 (comb (V c main_v10) (V c main_v9)) (fun t _ => flushed_eq V c t) covered

end Region

end Cert.PairProof.Pair

end
-- ==== Proof.HostLayout.lean ====
/-
  The arrays the host computes around the two kernel launches, each read index by index on the extended reals.

  Before the first launch: the text [4,256,768] flattened to [1024,768] (row `r` is row `r % 256` of batch
  `r / 256`); the weight's two column halves [256,0:768] and [256,768:1536] stacked along the rows into [512,768]
  and converted (the conversion is the identity on the extended reals); the bias followed by 256 zeros.
  Between the launches: the projection [1024,512] viewed as [4,256,512] and cut into its features 0..255 and
  256..511, so that entry (b, i, o) is the projection's row `256·b + i` at feature `o`, respectively `256 + o`.

  Each statement is proved in two steps: the stretch of operations as one composed term of the arrays it starts
  from, and that term at an index — a reshape by equal row-major positions, a slice by its offsets, a two-piece
  concatenation by which piece the row falls in.
-/
import proofs.«135334_j50345606644227_2_alg».proof.Proof.PairSpec
import proofs.«135334_j50345606644227_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.PairProof.Host

open Idealize.ShloMosaic Idealize.ShloMosaic.TcCoe Idealize.ShloMosaic.ValueIdx Idealize.SL.Sem Cert.KernelIdeal Cert.KernelIdeal.Gen Cert.PairSpec

/-! ## The text, flattened -/

/-- The reshape [4,256,768] → [1024,768] read at an index: row `r` is row `r % 256` of batch `r / 256`
    (both have row-major position `r * 768 + k`). -/
theorem reshape_text (t : Vec Ideal S4x256x768 .f32) :
    (shapeCast S1024x768 t shapeCasts_S4x256x768_S1024x768 : Vec Ideal S1024x768 .f32) = flatText t := by
  funext j
  unfold flatText
  refine shapeCast_apply t shapeCasts_S4x256x768_S1024x768 j _ ?_
  rw [Shape.rowMajor_val_three, Shape.rowMajor_val_two]
  show ((j 0).val / 256 * 256 + (j 0).val % 256) * 768 + (j 1).val = (j 0).val * 768 + (j 1).val
  omega

theorem host0_text (W : Valuation τ sig (Elt Ideal)) :
    StableHlo.after (hostOps0 (F := Ideal)) W (Proc.devRef .tc main_v6) = flatText (W (Proc.devRef .tc main_arg0)) := by
  have e : StableHlo.after (hostOps0 (F := Ideal)) W (Proc.devRef .tc main_v6)
      = (shapeCast S1024x768 (W (Proc.devRef .tc main_arg0)) shapeCasts_S4x256x768_S1024x768 : Vec Ideal S1024x768 .f32) := by
    after_results; rfl
  exact e.trans (reshape_text _)

/-! ## The stacked weight -/

/-- The two column halves of the weight concatenated along the rows, then converted (the identity on the extended
    reals), read at an index: row `n < 256` is the weight's row `n` at columns `0 .. 767`, row `n ≥ 256` is the
    weight's row `n - 256` at columns `768 .. 1535`. -/
theorem stack_weight (wt : Vec Ideal S256x1536 .f32) :
    (truncf (F := Ideal) (s := S512x768) (φ := .f32) .bf16 (concatenate S512x768 0
      [⟨S256x768, extractStridedSlice S256x768 ![0, 0] wt slices_S256x1536_S256x768_0_0⟩,
       ⟨S256x768, extractStridedSlice S256x768 ![0, 768] wt slices_S256x1536_S256x768_0_768⟩]
      concatenates_S256x768_S256x768_S512x768_d0 : Vec Ideal S512x768 .f32) bitsLt_bf16_f32 : Vec Ideal S512x768 .bf16)
      = stackedWeight wt := by
  funext j
  have h0 : (j 0).val < 512 := (j 0).isLt
  have h1 : (j 1).val < 768 := (j 1).isLt
  refine (truncf_apply _ bitsLt_bf16_f32 j).trans ?_
  unfold stackedWeight
  by_cases h : (j 0).val < 256
  · rw [dif_pos h]
    refine (concatenate_pair_apply_left (t := S512x768) (s₁ := S256x768) (s₂ := S256x768) (0 : Fin 2) _ _ concatenates_S256x768_S256x768_S512x768_d0 j rfl
      (ix2 (⟨(j 0).val, h⟩ : Fin 256) (⟨(j 1).val, h1⟩ : Fin 768)) (fun b => match b with
        | ⟨0, _⟩ => rfl
        | ⟨1, _⟩ => rfl)).trans ?_
    exact extractStridedSlice_apply ![0, 0] wt slices_S256x1536_S256x768_0_0 _ _ (fun a => match a with
      | ⟨0, _⟩ => by show (j 0).val = 0 + (j 0).val; omega
      | ⟨1, _⟩ => by show (j 1).val = 0 + (j 1).val; omega)
  · rw [dif_neg h]
    refine (concatenate_pair_apply_right (t := S512x768) (s₁ := S256x768) (s₂ := S256x768) (0 : Fin 2) _ _ concatenates_S256x768_S256x768_S512x768_d0 j rfl rfl
      (ix2 (⟨(j 0).val - 256, by omega⟩ : Fin 256) (⟨(j 1).val, h1⟩ : Fin 768)) (fun b => match b with
        | ⟨0, _⟩ => fun hb => absurd rfl hb
        | ⟨1, _⟩ => fun _ => rfl)
      (by show (j 0).val - 256 + 256 = (j 0).val; omega)).trans ?_
    exact extractStridedSlice_apply ![0, 768] wt slices_S256x1536_S256x768_0_768 _ _ (fun a => match a with
      | ⟨0, _⟩ => by show (j 0).val - 256 = 0 + ((j 0).val - 256); omega
      | ⟨1, _⟩ => by show 768 + (j 1).val = 768 + (j 1).val; rfl)

theorem host0_weight (W : Valuation τ sig (Elt Ideal)) :
    StableHlo.after (hostOps0 (F := Ideal)) W (Proc.devRef .tc main_v3) = stackedWeight (W (Proc.devRef .tc main_arg1)) := by
  have e : StableHlo.after (hostOps0 (F := Ideal)) W (Proc.devRef .tc main_v3)
      = (truncf (F := Ideal) (s := S512x768) (φ := .f32) .bf16 (concatenate S512x768 0
          [⟨S256x768, extractStridedSlice S256x768 ![0, 0] (W (Proc.devRef .tc main_arg1)) slices_S256x1536_S256x768_0_0⟩,
           ⟨S256x768, extractStridedSlice S256x768 ![0, 768] (W (Proc.devRef .tc main_arg1)) slices_S256x1536_S256x768_0_768⟩]
          concatenates_S256x768_S256x768_S512x768_d0 : Vec Ideal S512x768 .f32) bitsLt_bf16_f32 : Vec Ideal S512x768 .bf16) := by
    after_results <;> rfl
  exact e.trans (stack_weight _)

/-! ## The padded bias -/

/-- The bias followed by 256 zeros (a zero constant broadcast), read at an index. -/
theorem pad_bias (b : Vec Ideal S256 .f32) :
    (concatenate S512 0
      [⟨S256, b⟩,
       ⟨S256, (broadcastInDim S256 ![] bcast_S_S256 (constant (F := Ideal) S_ .f32 0x00000000#32) : Vec Ideal S256 .f32)⟩]
      concatenates_S256_S256_S512_d0 : Vec Ideal S512 .f32) = paddedBias b := by
  funext j
  have h0 : (j 0).val < 512 := (j 0).isLt
  unfold paddedBias
  by_cases h : (j 0).val < 256
  · rw [dif_pos h]
    exact concatenate_pair_apply_left (t := S512) (s₁ := S256) (s₂ := S256) (0 : Fin 1) _ _ concatenates_S256_S256_S512_d0 j rfl
      (ix1 (⟨(j 0).val, h⟩ : Fin 256)) (fun a => match a with
        | ⟨0, _⟩ => rfl)
  · rw [dif_neg h]
    refine (concatenate_pair_apply_right (t := S512) (s₁ := S256) (s₂ := S256) (0 : Fin 1) _ _ concatenates_S256_S256_S512_d0 j rfl rfl
      (ix1 (⟨(j 0).val - 256, by omega⟩ : Fin 256)) (fun a => match a with
        | ⟨0, _⟩ => fun hb => absurd rfl hb)
      (by show (j 0).val - 256 + 256 = (j 0).val; omega)).trans ?_
    refine (broadcastInDim_apply _ bcast_S_S256 _ _ ix0 (fun a => a.elim0)).trans ?_
    exact (constant_apply _ _).trans Ideal.ofBits_zero_f32

theorem host0_bias (W : Valuation τ sig (Elt Ideal)) :
    StableHlo.after (hostOps0 (F := Ideal)) W (Proc.devRef .tc main_v5) = paddedBias (W (Proc.devRef .tc main_arg2)) := by
  have e : StableHlo.after (hostOps0 (F := Ideal)) W (Proc.devRef .tc main_v5)
      = (concatenate S512 0
          [⟨S256, W (Proc.devRef .tc main_arg2)⟩,
           ⟨S256, (broadcastInDim S256 ![] bcast_S_S256 (constant (F := Ideal) S_ .f32 0x00000000#32) : Vec Ideal S256 .f32)⟩]
          concatenates_S256_S256_S512_d0 : Vec Ideal S512 .f32) := by
    after_results <;> rfl
  exact e.trans (pad_bias _)

/-! ## The projection's two halves -/

/-- The reshape [1024,512] → [4,256,512] followed by the slice of features 0..255, read at an index: entry
    (b, i, o) is the projection's row `256·b + i` at feature `o` (row-major position `(256·b + i)·512 + o` on
    both sides of the reshape). -/
theorem reshape_slice_left (p : Vec Ideal S1024x512 .f32) :
    (extractStridedSlice S4x256x256 ![0, 0, 0]
      (shapeCast S4x256x512 p shapeCasts_S1024x512_S4x256x512 : Vec Ideal S4x256x512 .f32)
      slices_S4x256x512_S4x256x256_0_0_0 : Vec Ideal S4x256x256 .f32) = leftHalf p := by
  funext j
  have h0 : (j 0).val < 4 := (j 0).isLt
  have h1 : (j 1).val < 256 := (j 1).isLt
  have h2 : (j 2).val < 256 := (j 2).isLt
  refine (extractStridedSlice_apply ![0, 0, 0] _ slices_S4x256x512_S4x256x256_0_0_0 j
    (ix3 (⟨(j 0).val, h0⟩ : Fin 4) (⟨(j 1).val, h1⟩ : Fin 256) (⟨(j 2).val, by omega⟩ : Fin 512)) (fun a => match a with
      | ⟨0, _⟩ => by show (j 0).val = 0 + (j 0).val; omega
      | ⟨1, _⟩ => by show (j 1).val = 0 + (j 1).val; omega
      | ⟨2, _⟩ => by show (j 2).val = 0 + (j 2).val; omega)).trans ?_
  unfold leftHalf
  refine shapeCast_apply p shapeCasts_S1024x512_S4x256x512 _ _ ?_
  rw [Shape.rowMajor_val_three, Shape.rowMajor_val_two]
  show ((j 0).val * 256 + (j 1).val) * 512 + (j 2).val = ((j 0).val * 256 + (j 1).val) * 512 + (j 2).val
  rfl

/-- The same reshape followed by the slice of features 256..511: entry (b, i, o) is the projection's row
    `256·b + i` at feature `256 + o`. -/
theorem reshape_slice_right (p : Vec Ideal S1024x512 .f32) :
    (extractStridedSlice S4x256x256 ![0, 0, 256]
      (shapeCast S4x256x512 p shapeCasts_S1024x512_S4x256x512 : Vec Ideal S4x256x512 .f32)
      slices_S4x256x512_S4x256x256_0_0_256 : Vec Ideal S4x256x256 .f32) = rightHalf p := by
  funext j
  have h0 : (j 0).val < 4 := (j 0).isLt
  have h1 : (j 1).val < 256 := (j 1).isLt
  have h2 : (j 2).val < 256 := (j 2).isLt
  refine (extractStridedSlice_apply ![0, 0, 256] _ slices_S4x256x512_S4x256x256_0_0_256 j
    (ix3 (⟨(j 0).val, h0⟩ : Fin 4) (⟨(j 1).val, h1⟩ : Fin 256) (⟨256 + (j 2).val, by omega⟩ : Fin 512)) (fun a => match a with
      | ⟨0, _⟩ => by show (j 0).val = 0 + (j 0).val; omega
      | ⟨1, _⟩ => by show (j 1).val = 0 + (j 1).val; omega
      | ⟨2, _⟩ => by show 256 + (j 2).val = 256 + (j 2).val; rfl)).trans ?_
  unfold rightHalf
  refine shapeCast_apply p shapeCasts_S1024x512_S4x256x512 _ _ ?_
  rw [Shape.rowMajor_val_three, Shape.rowMajor_val_two]
  show ((j 0).val * 256 + (j 1).val) * 512 + (256 + (j 2).val) = ((j 0).val * 256 + (j 1).val) * 512 + (256 + (j 2).val)
  rfl

theorem host1_left (W : Valuation τ sig (Elt Ideal)) :
    StableHlo.after (hostOps1 (F := Ideal)) W (Proc.devRef .tc main_v9) = leftHalf (W (Proc.devRef .tc main_v7)) := by
  have e : StableHlo.after (hostOps1 (F := Ideal)) W (Proc.devRef .tc main_v9)
      = (extractStridedSlice S4x256x256 ![0, 0, 0]
          (shapeCast S4x256x512 (W (Proc.devRef .tc main_v7)) shapeCasts_S1024x512_S4x256x512 : Vec Ideal S4x256x512 .f32)
          slices_S4x256x512_S4x256x256_0_0_0 : Vec Ideal S4x256x256 .f32) := by
    after_results; rfl
  exact e.trans (reshape_slice_left _)

theorem host1_right (W : Valuation τ sig (Elt Ideal)) :
    StableHlo.after (hostOps1 (F := Ideal)) W (Proc.devRef .tc main_v10) = rightHalf (W (Proc.devRef .tc main_v7)) := by
  have e : StableHlo.after (hostOps1 (F := Ideal)) W (Proc.devRef .tc main_v10)
      = (extractStridedSlice S4x256x256 ![0, 0, 256]
          (shapeCast S4x256x512 (W (Proc.devRef .tc main_v7)) shapeCasts_S1024x512_S4x256x512 : Vec Ideal S4x256x512 .f32)
          slices_S4x256x512_S4x256x256_0_0_256 : Vec Ideal S4x256x256 .f32) := by
    after_results; rfl
  exact e.trans (reshape_slice_right _)

end Cert.PairProof.Host

end
-- ==== Proof.Bridge.lean ====
/-
  Both programs compute one function of the three arguments.

  Entry (b, i, j, o) of the result is
    (Σ_k text[b,i,k] · weight[o, 768 + k]  +  Σ_k text[b,j,k] · weight[o, k])  +  bias[o].
  The reference adds the two sums first and the bias last. The kernel adds, inside its projection, the padded
  bias to each half — zero to the half that multiplies the weight's upper columns, `bias[o]` to the other — and
  then adds the two halves: (A + 0) + (B + c). On the extended reals `x + 0 = x` and addition is associative
  without any finiteness assumption, so the two groupings agree everywhere; the inputs' finiteness is not used.
-/
import proofs.«135334_j50345606644227_2_alg».proof.Proof.PairSpec
import proofs.«135334_j50345606644227_2_alg».proof.Proof.Gen.ReferenceIdeal.Read

noncomputable section

namespace Cert.PairSpec

open Idealize.ShloMosaic Idealize.ShloMosaic.ValueIdx Cert.KernelIdeal

/-- Column `k` of the weight's lower half, and of its upper half. -/
abbrev lo (k : Fin 768) : Fin 1536 := ⟨k.val, by have := k.isLt; omega⟩
abbrev hi (k : Fin 768) : Fin 1536 := ⟨768 + k.val, by have := k.isLt; omega⟩

/-- The result at (b, i, j, o), with the reference's grouping. -/
def pairAt (t : Vec Ideal S4x256x768 .f32) (wt : Vec Ideal S256x1536 .f32) (bs : Vec Ideal S256 .f32)
    (b : Fin 4) (i j o : Fin 256) : EReal :=
  ((∑ k : Fin 768, t (ix3 b i k) * wt (ix2 o (hi k))) + (∑ k : Fin 768, t (ix3 b j k) * wt (ix2 o (lo k)))) + bs (ix1 o)

/-- The result as an array over [4, 256, 256, 256]. -/
def pairSum (t : Vec Ideal S4x256x768 .f32) (wt : Vec Ideal S256x1536 .f32) (bs : Vec Ideal S256 .f32) :
    Vec Ideal S4x256x256x256 .f32 :=
  fun j => pairAt t wt bs ⟨(j 0).val, (j 0).isLt⟩ ⟨(j 1).val, (j 1).isLt⟩ ⟨(j 2).val, (j 2).isLt⟩ ⟨(j 3).val, (j 3).isLt⟩

/-! ## The laid-out operands at an index -/

/-- Row `256·b + i` of the flattened text is row `i` of batch `b`. -/
theorem flatText_at (t : Vec Ideal S4x256x768 .f32) (b : Fin 4) (i : Fin 256) (k : Fin 768)
    (h : b.val * 256 + i.val < 1024) : flatText t (ix2 (⟨b.val * 256 + i.val, h⟩ : Fin 1024) k) = t (ix3 b i k) := by
  show t _ = t _
  refine congrArg t (funext fun a => Fin.ext ?_)
  have hb := b.isLt; have hi := i.isLt
  match a with
  | ⟨0, _⟩ => show (b.val * 256 + i.val) / 256 = b.val; omega
  | ⟨1, _⟩ => show (b.val * 256 + i.val) % 256 = i.val; omega
  | ⟨2, _⟩ => rfl

/-- Rows 0..255 of the stacked weight are the weight's lower columns. -/
theorem stackedWeight_low (wt : Vec Ideal S256x1536 .f32) (o : Fin 256) (k : Fin 768) (h : o.val < 512) :
    stackedWeight wt (ix2 (⟨o.val, h⟩ : Fin 512) k) = wt (ix2 o (lo k)) := by
  unfold stackedWeight
  rw [dif_pos (show ((ix2 (⟨o.val, h⟩ : Fin 512) k) 0).val < 256 from o.isLt)]

/-- Rows 256..511 of the stacked weight are the weight's upper columns. -/
theorem stackedWeight_high (wt : Vec Ideal S256x1536 .f32) (o : Fin 256) (k : Fin 768) (h : 256 + o.val < 512) :
    stackedWeight wt (ix2 (⟨256 + o.val, h⟩ : Fin 512) k) = wt (ix2 o (hi k)) := by
  unfold stackedWeight
  rw [dif_neg (show ¬ ((ix2 (⟨256 + o.val, h⟩ : Fin 512) k) 0).val < 256 from by show ¬ (256 + o.val < 256); omega)]
  refine congrArg wt (funext fun a => Fin.ext ?_)
  match a with
  | ⟨0, _⟩ => show 256 + o.val - 256 = o.val; omega
  | ⟨1, _⟩ => rfl

theorem paddedBias_low (bs : Vec Ideal S256 .f32) (o : Fin 256) (h : o.val < 512) :
    paddedBias bs (ix1 (⟨o.val, h⟩ : Fin 512)) = bs (ix1 o) := by
  unfold paddedBias
  rw [dif_pos (show ((ix1 (⟨o.val, h⟩ : Fin 512)) 0).val < 256 from o.isLt)]

theorem paddedBias_high (bs : Vec Ideal S256 .f32) (o : Fin 256) (h : 256 + o.val < 512) :
    paddedBias bs (ix1 (⟨256 + o.val, h⟩ : Fin 512)) = (0 : EReal) := by
  unfold paddedBias
  rw [dif_neg (show ¬ ((ix1 (⟨256 + o.val, h⟩ : Fin 512)) 0).val < 256 from by show ¬ (256 + o.val < 256); omega)]

/-! ## The kernel's composite is `pairSum` -/

/-- The two halves of the projection of the laid-out operands, added pairwise, are `pairSum`: the upper half
    carries a zero where the lower carries the bias, and `(A + 0) + (B + c) = (A + B) + c`. -/
theorem kernel_eq (t : Vec Ideal S4x256x768 .f32) (wt : Vec Ideal S256x1536 .f32) (bs : Vec Ideal S256 .f32) :
    comb (rightHalf (proj (flatText t) (stackedWeight wt) (paddedBias bs)))
      (leftHalf (proj (flatText t) (stackedWeight wt) (paddedBias bs))) = pairSum t wt bs := by
  funext j
  obtain ⟨b, i, jj, o, rfl⟩ : ∃ (b : Fin 4) (i jj o : Fin 256), j = ix4 b i jj o := ⟨j 0, j 1, j 2, j 3, eq_ix4 j⟩
  have hb := b.isLt; have hi' := i.isLt; have hj := jj.isLt; have ho := o.isLt
  have hri : b.val * 256 + i.val < 1024 := by omega
  have hrj : b.val * 256 + jj.val < 1024 := by omega
  have hlo : o.val < 512 := by omega
  have hhi : 256 + o.val < 512 := by omega
  show (projAt (flatText t) (stackedWeight wt) (paddedBias bs) ⟨b.val * 256 + i.val, hri⟩ ⟨256 + o.val, hhi⟩
      + projAt (flatText t) (stackedWeight wt) (paddedBias bs) ⟨b.val * 256 + jj.val, hrj⟩ ⟨o.val, hlo⟩ : EReal)
    = pairAt t wt bs b i jj o
  unfold projAt pairAt
  rw [paddedBias_high bs o hhi, paddedBias_low bs o hlo, add_zero]
  rw [Finset.sum_congr rfl (fun k _ => by rw [flatText_at t b i k hri, stackedWeight_high wt o k hhi] :
      ∀ k ∈ (Finset.univ : Finset (Fin 768)), flatText t (ix2 (⟨b.val * 256 + i.val, hri⟩ : Fin 1024) k) * stackedWeight wt (ix2 (⟨256 + o.val, hhi⟩ : Fin 512) k) = t (ix3 b i k) * wt (ix2 o (hi k)))]
  rw [Finset.sum_congr rfl (fun k _ => by rw [flatText_at t b jj k hrj, stackedWeight_low wt o k hlo] :
      ∀ k ∈ (Finset.univ : Finset (Fin 768)), flatText t (ix2 (⟨b.val * 256 + jj.val, hrj⟩ : Fin 1024) k) * stackedWeight wt (ix2 (⟨o.val, hlo⟩ : Fin 512) k) = t (ix3 b jj k) * wt (ix2 o (lo k)))]
  exact (add_assoc _ _ _).symm

/-! ## The reference's last stage is `pairSum` -/

open Cert.ReferenceIdeal.Read in
/-- The reference's result, read one operation at a time: the two broadcasts of each matrix product put
    (b, i, o) and (b, j, o) under (b, i, j, o), the slices put the weight's lower and upper columns under
    `k`, and the bias is broadcast along its last axis. -/
theorem ref_eq (t : Vec Ideal S4x256x768 .f32) (wt : Vec Ideal S256x1536 .f32) (bs : Vec Ideal S256 .f32) :
    val_main_v11 (F := Ideal) t wt bs = pairSum t wt bs := by
  funext j
  obtain ⟨b, i, jj, o, rfl⟩ : ∃ (b : Fin 4) (i jj o : Fin 256), j = ix4 b i jj o := ⟨j 0, j 1, j 2, j 3, eq_ix4 j⟩
  rw [val_main_v11_apply, val_main_v8_apply, val_main_v6_apply, val_main_v4_apply, val_main_v3_apply,
    val_main_v7_apply, val_main_v5_apply, val_main_v2_apply, val_main_v10_apply, val_main_v9_apply]
  simp only [val_main_v1_apply, val_main_v0_apply]
  have e1 : ∀ k : Fin 768, lidx_main_v3 (idx_main_v4 (idx_main_v6 (ix4 b i jj o))) k = ix3 b i k := fun k =>
    funext fun a => Fin.ext (by match a with | ⟨0, _⟩ => rfl | ⟨1, _⟩ => rfl | ⟨2, _⟩ => rfl)
  have e2 : ∀ k : Fin 768, idx_main_v1 (ridx_main_v3 (idx_main_v4 (idx_main_v6 (ix4 b i jj o))) k) = ix2 o (hi k) := fun k =>
    funext fun a => Fin.ext (by match a with | ⟨0, _⟩ => rfl | ⟨1, _⟩ => rfl)
  have e3 : ∀ k : Fin 768, lidx_main_v2 (idx_main_v5 (idx_main_v7 (ix4 b i jj o))) k = ix3 b jj k := fun k =>
    funext fun a => Fin.ext (by match a with | ⟨0, _⟩ => rfl | ⟨1, _⟩ => rfl | ⟨2, _⟩ => rfl)
  have e4 : ∀ k : Fin 768, idx_main_v0 (ridx_main_v2 (idx_main_v5 (idx_main_v7 (ix4 b i jj o))) k) = ix2 o (lo k) := fun k =>
    funext fun a => Fin.ext (by match a with | ⟨0, _⟩ => rfl | ⟨1, _⟩ => rfl)
  have e5 : idx_main_v9 (idx_main_v10 (ix4 b i jj o)) = ix1 o :=
    funext fun a => Fin.ext (by match a with | ⟨0, _⟩ => rfl)
  simp only [e1, e2, e3, e4, e5]
  rfl

end Cert.PairSpec

end
-- ==== Proof.KernelValue.lean ====
/-
  The kernel program's result as one function of its three arguments.

  Reading the run backwards from the result buffer: the pairwise sum's launch leaves `comb pi pj` there, where
  `pi` and `pj` are what the second host stretch cut out of the projection's output — its upper and lower 256
  features —; the projection's launch left `proj X Wc bp` in that output, where `X`, `Wc`, `bp` are what the first
  host stretch laid out from the arguments (the flattened text, the stacked weight, the padded bias). Composed,
  and regrouped by `x + 0 = x` and associativity of the sum, this is `pairSum` of the arguments.
-/
import proofs.«135334_j50345606644227_2_alg».proof.Proof.KernelRun
import proofs.«135334_j50345606644227_2_alg».proof.Proof.ProjBlocks
import proofs.«135334_j50345606644227_2_alg».proof.Proof.PairBlocks
import proofs.«135334_j50345606644227_2_alg».proof.Proof.HostLayout
import proofs.«135334_j50345606644227_2_alg».proof.Proof.Bridge

noncomputable section

namespace Cert.PairProof.Value

open Idealize.ShloMosaic Idealize.ShloMosaic.TcCoe Idealize.SL.Sem Cert.KernelIdeal Cert.KernelIdeal.Gen Cert.PairSpec
open Cert.PairProof.Proj Cert.PairProof.Pair Cert.PairProof.Host

variable (m : (ℓ : Loc nD τ sig) → Buf (Elt Ideal) ℓ) (ρ : Dev nD → PrngReg)

/-- What the last launch leaves in the result buffer, as one function of the three arguments: the pairwise sum's
    output array is `comb` of the two halves the second host stretch cuts out of the projection's output array,
    which is `proj` of the operands the first host stretch lays out from the arguments. -/
theorem result_eq (c : Dev nD) :
    W4 (F := Ideal) m ρ c (Proc.devRef .tc main_v11)
      = pairSum (m ((c.tc : Thread nD τ).loc main_arg0)) (m ((c.tc : Thread nD τ).loc main_arg1)) (m ((c.tc : Thread nD τ).loc main_arg2)) := by
  have h4 : W4 (F := Ideal) m ρ c (Proc.devRef .tc main_v11) = (dat1 (V3 m ρ) c).arrAt 2 cfg1.N := W4_arr m ρ c 2
  have hpi : V3 (F := Ideal) m ρ c main_v10 = rightHalf (W2 m ρ c (Proc.devRef .tc main_v7)) := host1_right (W2 m ρ c)
  have hpj : V3 (F := Ideal) m ρ c main_v9 = leftHalf (W2 m ρ c (Proc.devRef .tc main_v7)) := host1_left (W2 m ρ c)
  have h2 : W2 (F := Ideal) m ρ c (Proc.devRef .tc main_v7) = (dat0 (V1 m ρ) c).arrAt 3 cfg0.N := W2_arr m ρ c 3
  have hx : V1 (F := Ideal) m ρ c main_v6 = flatText (m ((c.tc : Thread nD τ).loc main_arg0)) := host0_text (W0 m ρ c)
  have hw : V1 (F := Ideal) m ρ c main_v3 = stackedWeight (m ((c.tc : Thread nD τ).loc main_arg1)) := host0_weight (W0 m ρ c)
  have hb : V1 (F := Ideal) m ρ c main_v5 = paddedBias (m ((c.tc : Thread nD τ).loc main_arg2)) := host0_bias (W0 m ρ c)
  rw [h4, region1_value (V3 m ρ) c, hpi, hpj, h2, region0_value (V1 m ρ) c, hx, hw, hb]
  exact kernel_eq _ _ _

/-- The kernel program's run with its result at `pairSum` of the arguments. -/
theorem run : θ_run defs (onTc (τ := τ) (main (F := Ideal))) ⟨m, fun _ => 0, ρ⟩ (fun r => ∀ c : Dev nD,
      r.2.mem ((c.tc : Thread nD τ).loc main_v11)
        = pairSum (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.PairProof.Run.run_named m ρ)

end Cert.PairProof.Value

end
-- ==== Proof.lean ====
/-
  The kernel and its reference compute, for a batch `b`, rows `i`, `j` and an output feature `o`,
    out[b,i,j,o] = Σ_k text[b,i,k] · weight[o, 768 + k]  +  Σ_k text[b,j,k] · weight[o, k]  +  bias[o].
  The reference forms the two matrix products, broadcasts them against each other, adds them, then adds the bias.
  The kernel stacks the weight's two column halves as 512 rows, pads the bias with 256 zeros, and in a first launch
  projects the flattened text onto the stacked weight and adds the padded bias, row block by row block; it cuts the
  result into its lower half `pj` (which carries the bias) and upper half `pi` (which carries the zeros), and in a
  second launch adds `pi[b,i,o] + pj[b,j,o]` tile by tile. At the ideal instance the change of float format before
  the matrix product is the identity and the product is the plain sum over `k`, so the two sides differ only in
  where the bias and a zero are added: (A + 0) + (B + c) against (A + B) + c, equal on the extended reals by
  `x + 0 = x` and associativity alone — the inputs' finiteness is never used.

  Modules: PairSpec (each array of the kernel as one function of the arrays before it), ProjBlocks and PairBlocks
  (what each launch leaves in its output array, from what its grid points write back), HostLayout (the host
  operations around the launches, read at an index), KernelRun (the run with the result buffer named), KernelValue
  (these composed), Bridge (the composite and the reference's last stage are both `pairSum`).
-/
import proofs.«135334_j50345606644227_2_alg».proof.Defs
import proofs.«135334_j50345606644227_2_alg».proof.Proof.Gen.Kernel
import proofs.«135334_j50345606644227_2_alg».proof.Proof.Gen.Kernel.Skeleton
import proofs.«135334_j50345606644227_2_alg».proof.Proof.Gen.Kernel.Launch
import proofs.«135334_j50345606644227_2_alg».proof.Proof.Gen.Kernel.Points
import proofs.«135334_j50345606644227_2_alg».proof.Proof.Gen.Kernel.Frame
import proofs.«135334_j50345606644227_2_alg».proof.Proof.Gen.KernelIdeal
import proofs.«135334_j50345606644227_2_alg».proof.Proof.Gen.KernelIdeal.Skeleton
import proofs.«135334_j50345606644227_2_alg».proof.Proof.Gen.KernelIdeal.Launch
import proofs.«135334_j50345606644227_2_alg».proof.Proof.Gen.KernelIdeal.Points
import proofs.«135334_j50345606644227_2_alg».proof.Proof.Gen.KernelIdeal.Frame
import proofs.«135334_j50345606644227_2_alg».proof.Proof.Gen.ReferenceIdeal
import proofs.«135334_j50345606644227_2_alg».proof.Proof.Gen.ReferenceIdeal.Run
import proofs.«135334_j50345606644227_2_alg».proof.Proof.Gen.ReferenceIdeal.Read
import proofs.«135334_j50345606644227_2_alg».proof.Proof.Gen.Pre_finite_inputs
import proofs.«135334_j50345606644227_2_alg».proof.Proof.KernelValue
import proofs.«135334_j50345606644227_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct to prove. -/
theorem preserves : Cert.preserves_Kernel_KernelIdeal := trivial

/-- From memories agreeing on the three arguments both programs end with the result at `pairSum` of them: the
    kernel by the run read through its two launches, the reference by its run read one operation at a time. -/
theorem algebraic : Cert.algebraic_KernelIdeal_ReferenceIdeal := by
  intro m ρ m' ρ' _ hagree
  refine ⟨fun c => Cert.PairSpec.pairSum (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.PairProof.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v11_eq _ _ _).trans (Cert.PairSpec.ref_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
